-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S512x1024 : Shape := ⟨2, ![512, 1024]⟩
abbrev S512 : Shape := ⟨1, ![512]⟩
abbrev S1x512x1x1 : Shape := ⟨4, ![1, 512, 1, 1]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1x512x1x1 : S_.BroadcastsInDim S1x512x1x1 (![] : Fin 0 → Fin S1x512x1x1.rank)
  reducesTo_S1x512x1x1_S_d0_1_2_3 : S1x512x1x1.ReducesTo [0, 1, 2, 3] S_

variable [Facts]

def fn_part1 {F : FTy → Type} [FloatOps F] (main_arg4 : FVec F S512 .f32) (main_arg5 : FVec F S1x512x1x1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512x1x1 .f32 := Host.absf main_arg5
  let main_cst_8 : FVec F S_ .f32 := constant S_ .f32 0x7F800000#32
  let main_v25 : FVec F S1x512x1x1 .f32 := broadcastInDim S1x512x1x1 ![] bcast_S_S1x512x1x1 main_cst_8
  let main_v26 : IVec S1x512x1x1 1 := cmpf .olt main_v24 main_v25
  let main_c_9 : IVec S_ 1 := constantI S_ 1 1#1
  let main_v27 : IVec S_ 1 := (fun x v => Host.reduce IntOp.andi x v reducesTo_S1x512x1x1_S_d0_1_2_3 h_S_) main_v26 main_c_9
  let main_v28 : IVec S_ 1 := andi main_v23 main_v27
  main_v28

def fn {F : FTy → Type} [FloatOps F] (main_arg0 : FVec F S32768x1024 .f32) (main_arg1 : FVec F S512x1024 .f32) (main_arg2 : FVec F S512 .f32) (main_arg3 : FVec F S512 .f32) (main_arg4 : FVec F S512 .f32) (main_arg5 : FVec F S1x512x1x1 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32768x1024 : Shape := ⟨2, ![32768, 1024]⟩
abbrev S512x1024 : Shape := ⟨2, ![512, 1024]⟩
abbrev S512 : Shape := ⟨1, ![512]⟩
abbrev S1x512x1x1 : Shape := ⟨4, ![1, 512, 1, 1]⟩
abbrev S1024x512 : Shape := ⟨2, ![1024, 512]⟩
abbrev S1x512 : Shape := ⟨2, ![1, 512]⟩
abbrev S16x32 : Shape := ⟨2, ![16, 32]⟩
abbrev S32768x1 : Shape := ⟨2, ![32768, 1]⟩
abbrev S2048x1024 : Shape := ⟨2, ![2048, 1024]⟩
abbrev S2048x1 : Shape := ⟨2, ![2048, 1]⟩
abbrev S2048x512 : Shape := ⟨2, ![2048, 512]⟩
abbrev S2048x16x32 : Shape := ⟨3, ![2048, 16, 32]⟩
abbrev S2048x16 : Shape := ⟨2, ![2048, 16]⟩
abbrev S2048x16x1 : Shape := ⟨3, ![2048, 16, 1]⟩
abbrev S1x16x32 : Shape := ⟨3, ![1, 16, 32]⟩
abbrev S2048 : Shape := ⟨1, ![2048]⟩
abbrev S1x32768 : Shape := ⟨2, ![1, 32768]⟩
abbrev S512x1 : Shape := ⟨2, ![512, 1]⟩
abbrev S512x32768 : Shape := ⟨2, ![512, 32768]⟩
abbrev S1x8192 : Shape := ⟨2, ![1, 8192]⟩
abbrev S512x8192 : Shape := ⟨2, ![512, 8192]⟩
abbrev S1x512x32768x1 : Shape := ⟨4, ![1, 512, 32768, 1]⟩

abbrev nBuf : Space → Nat
  | .hbm => 16
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S512x1024, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512x1x1, .f32⟩
  | .hbm, ⟨6, _⟩ => ⟨S1024x512, .f32⟩
  | .hbm, ⟨7, _⟩ => ⟨S1024x512, .bf16⟩
  | .hbm, ⟨8, _⟩ => ⟨S1x512, .f32⟩
  | .hbm, ⟨9, _⟩ => ⟨S16x32, .f32⟩
  | .hbm, ⟨10, _⟩ => ⟨S16x32, .f32⟩
  | .hbm, ⟨11, _⟩ => ⟨S32768x1, .f32⟩
  | .hbm, ⟨12, _⟩ => ⟨S1x32768, .f32⟩
  | .hbm, ⟨13, _⟩ => ⟨S512x1, .f32⟩
  | .hbm, ⟨14, _⟩ => ⟨S512x32768, .f32⟩
  | .hbm, ⟨15, _⟩ => ⟨S1x512x32768x1, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1x512, .f32⟩
  | .local _ .vmem, ⟨4, _⟩ => ⟨S16x32, .f32⟩
  | .local _ .vmem, ⟨5, _⟩ => ⟨S16x32, .f32⟩
  | .local _ .vmem, ⟨6, _⟩ => ⟨S2048x1, .f32⟩
  | .local _ .vmem, ⟨7, _⟩ => ⟨S2048x1, .f32⟩
  | .local _ .vmem, ⟨8, _⟩ => ⟨S1x8192, .f32⟩
  | .local _ .vmem, ⟨9, _⟩ => ⟨S1x8192, .f32⟩
  | .local _ .vmem, ⟨10, _⟩ => ⟨S512x1, .f32⟩
  | .local _ .vmem, ⟨11, _⟩ => ⟨S512x8192, .f32⟩
  | .local _ .vmem, ⟨12, _⟩ => ⟨S512x8192, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S512x1024_S1024x512_1_0 : S512x1024.Transposes [1, 0] S1024x512
  bitsLt_bf16_f32 : FTy.bits .bf16 < FTy.bits .f32
  shapeCasts_S512_S1x512 : S512.ShapeCasts S1x512
  shapeCasts_S512_S16x32 : S512.ShapeCasts S16x32
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S2048x512_S2048x16x32 : S2048x512.ShapeCasts S2048x16x32
  reduces_S2048x16x32_S2048x16 : S2048x16x32.Reduces [2] S2048x16
  shapeCasts_S2048x16_S2048x16x1 : S2048x16.ShapeCasts S2048x16x1
  broadcasts_S2048x16x1_S2048x16x32 : S2048x16x1.Broadcasts S2048x16x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  shapeCasts_S16x32_S1x16x32 : S16x32.ShapeCasts S1x16x32
  broadcasts_S1x16x32_S2048x16x32 : S1x16x32.Broadcasts S2048x16x32
  shapeCasts_S2048x16x32_S2048x512 : S2048x16x32.ShapeCasts S2048x512
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S32768x1_S1x32768 : S32768x1.ShapeCasts S1x32768
  shapeCasts_S1x512x1x1_S512x1 : S1x512x1x1.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S512x1_S512x8192 : S512x1.Broadcasts S512x8192
  broadcasts_S1x8192_S512x8192 : S1x8192.Broadcasts S512x8192
  inb_S512x8192_S512x8192_0_0 : ∀ a, (![0, 0] : Fin 2 → Nat) a + S512x8192.size a ≤ S512x8192.size a
  h_S512x8192 : 0 < S512x8192.numel
  shapeCasts_S512x32768_S1x512x32768x1 : S512x32768.ShapeCasts S1x512x32768x1
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S32768x1.size a
  hwx0_5 : ∀ i : grid0.Coords, EltTy.bits .f32 = 32 ∨ (Rect.block (s := S32768x1) S2048x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x32768.size a
  hwx1_0 : ∀ i : grid1.Coords, EltTy.bits .f32 = 32 ∨ (Rect.block (s := S1x32768) S1x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x8192.size a ≤ S512x32768.size a
  hwx1_2 : ∀ i : grid1.Coords, EltTy.bits .f32 = 32 ∨ (Rect.block (s := S512x32768) S512x8192.size (cc1_transform_2 i) (hinb1_2 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x1024 : Shape := ⟨2, ![32768, 1024]⟩
abbrev S512x1024 : Shape := ⟨2, ![512, 1024]⟩
abbrev S512 : Shape := ⟨1, ![512]⟩
abbrev S1x512x1x1 : Shape := ⟨4, ![1, 512, 1, 1]⟩
abbrev S1024x512 : Shape := ⟨2, ![1024, 512]⟩
abbrev S32768x512 : Shape := ⟨2, ![32768, 512]⟩
abbrev S1x512 : Shape := ⟨2, ![1, 512]⟩
abbrev S32768x16x32 : Shape := ⟨3, ![32768, 16, 32]⟩
abbrev S_ : Shape := ⟨0, ![]⟩
abbrev S32768x16 : Shape := ⟨2, ![32768, 16]⟩
abbrev S32768x16x1 : Shape := ⟨3, ![32768, 16, 1]⟩
abbrev S16x32 : Shape := ⟨2, ![16, 32]⟩
abbrev S1x16x32 : Shape := ⟨3, ![1, 16, 32]⟩
abbrev S32768 : Shape := ⟨1, ![32768]⟩
abbrev S1x1x32768x1 : Shape := ⟨4, ![1, 1, 32768, 1]⟩
abbrev S1x512x32768x1 : Shape := ⟨4, ![1, 512, 32768, 1]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S512x1024, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512x1x1, .f32⟩
  | .hbm, ⟨6, _⟩ => ⟨S1024x512, .f32⟩
  | .hbm, ⟨7, _⟩ => ⟨S32768x512, .f32⟩
  | .hbm, ⟨8, _⟩ => ⟨S1x512, .f32⟩
  | .hbm, ⟨9, _⟩ => ⟨S32768x512, .f32⟩
  | .hbm, ⟨10, _⟩ => ⟨S32768x512, .f32⟩
  | .hbm, ⟨11, _⟩ => ⟨S32768x16x32, .f32⟩
  | .hbm, ⟨12, _⟩ => ⟨S_, .f32⟩
  | .hbm, ⟨13, _⟩ => ⟨S32768x16, .f32⟩
  | .hbm, ⟨14, _⟩ => ⟨S32768x16x1, .f32⟩
  | .hbm, ⟨15, _⟩ => ⟨S_, .f32⟩
  | .hbm, ⟨16, _⟩ => ⟨S32768x16x1, .f32⟩
  | .hbm, ⟨17, _⟩ => ⟨S32768x16x1, .f32⟩
  | .hbm, ⟨18, _⟩ => ⟨S32768x16x32, .f32⟩
  | .hbm, ⟨19, _⟩ => ⟨S_, .f32⟩
  | .hbm, ⟨20, _⟩ => ⟨S32768x16, .f32⟩
  | .hbm, ⟨21, _⟩ => ⟨S32768x16x1, .f32⟩
  | .hbm, ⟨22, _⟩ => ⟨S_, .f32⟩
  | .hbm, ⟨23, _⟩ => ⟨S32768x16x1, .f32⟩
  | .hbm, ⟨24, _⟩ => ⟨S32768x16x1, .f32⟩
  | .hbm, ⟨25, _⟩ => ⟨S32768x16x1, .f32⟩
  | .hbm, ⟨26, _⟩ => ⟨S32768x16x1, .f32⟩
  | .hbm, ⟨27, _⟩ => ⟨S_, .f32⟩
  | .hbm, ⟨28, _⟩ => ⟨S32768x16x1, .f32⟩
  | .hbm, ⟨29, _⟩ => ⟨S32768x16x1, .f32⟩
  | .hbm, ⟨30, _⟩ => ⟨S32768x16x32, .f32⟩
  | .hbm, ⟨31, _⟩ => ⟨S32768x16x32, .f32⟩
  | .hbm, ⟨32, _⟩ => ⟨S_, .f32⟩
  | .hbm, ⟨33, _⟩ => ⟨S32768x16x1, .f32⟩
  | .hbm, ⟨34, _⟩ => ⟨S32768x16x1, .f32⟩
  | .hbm, ⟨35, _⟩ => ⟨S32768x16x1, .f32⟩
  | .hbm, ⟨36, _⟩ => ⟨S32768x16x32, .f32⟩
  | .hbm, ⟨37, _⟩ => ⟨S32768x16x32, .f32⟩
  | .hbm, ⟨38, _⟩ => ⟨S16x32, .f32⟩
  | .hbm, ⟨39, _⟩ => ⟨S1x16x32, .f32⟩
  | .hbm, ⟨40, _⟩ => ⟨S32768x16x32, .f32⟩
  | .hbm, ⟨41, _⟩ => ⟨S32768x16x32, .f32⟩
  | .hbm, ⟨42, _⟩ => ⟨S16x32, .f32⟩
  | .hbm, ⟨43, _⟩ => ⟨S1x16x32, .f32⟩
  | .hbm, ⟨44, _⟩ => ⟨S32768x16x32, .f32⟩
  | .hbm, ⟨45, _⟩ => ⟨S32768x16x32, .f32⟩
  | .hbm, ⟨46, _⟩ => ⟨S32768x512, .f32⟩
  | .hbm, ⟨47, _⟩ => ⟨S_, .f32⟩
  | .hbm, ⟨48, _⟩ => ⟨S32768, .f32⟩
  | .hbm, ⟨49, _⟩ => ⟨S1x1x32768x1, .f32⟩
  | .hbm, ⟨50, _⟩ => ⟨S1x512x32768x1, .f32⟩
  | .hbm, ⟨51, _⟩ => ⟨S1x512x32768x1, .f32⟩
  | .hbm, ⟨52, _⟩ => ⟨S1x512x32768x1, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  shapeCasts_S32768x512_S32768x16x32 : S32768x512.ShapeCasts S32768x16x32
  reducesTo_S32768x16x32_S32768x16_d2 : S32768x16x32.ReducesTo [2] S32768x16
  h_S_ : 0 < S_.numel
  bcast_S32768x16_S32768x16x1_0_1 : S32768x16.BroadcastsInDim S32768x16x1 (![0, 1] : Fin 2 → Fin S32768x16x1.rank)
  bcast_S_S32768x16x1 : S_.BroadcastsInDim S32768x16x1 (![] : Fin 0 → Fin S32768x16x1.rank)
  bcast_S32768x16x1_S32768x16x32_0_1_2 : S32768x16x1.BroadcastsInDim S32768x16x32 (![0, 1, 2] : Fin 3 → Fin S32768x16x32.rank)
  shapeCasts_S512_S16x32 : S512.ShapeCasts S16x32
  bcast_S16x32_S1x16x32_1_2 : S16x32.BroadcastsInDim S1x16x32 (![1, 2] : Fin 2 → Fin S1x16x32.rank)
  bcast_S1x16x32_S32768x16x32_0_1_2 : S1x16x32.BroadcastsInDim S32768x16x32 (![0, 1, 2] : Fin 3 → Fin S32768x16x32.rank)
  shapeCasts_S32768x16x32_S32768x512 : S32768x16x32.ShapeCasts S32768x512
  reducesTo_S32768x512_S32768_d1 : S32768x512.ReducesTo [1] S32768
  bcast_S32768_S1x1x32768x1_2 : S32768.BroadcastsInDim S1x1x32768x1 (![2] : Fin 1 → Fin S1x1x32768x1.rank)
  bcast_S1x1x32768x1_S1x512x32768x1_0_1_2_3 : S1x1x32768x1.BroadcastsInDim S1x512x32768x1 (![0, 1, 2, 3] : Fin 4 → Fin S1x512x32768x1.rank)
  bcast_S1x512x1x1_S1x512x32768x1_0_1_2_3 : S1x512x1x1.BroadcastsInDim S1x512x32768x1 (![0, 1, 2, 3] : Fin 4 → Fin S1x512x32768x1.rank)
  dot_S32768x1024_S1024x512_S32768x512_1_0_0_1_n_n_wf : DotDims.WF S32768x1024 S1024x512 S32768x512 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf

class Facts : Prop extends Facts₀ where

variable [Facts]
-- ==== Proof.KernelRun.lean ====
/-
  The idealized kernel program, run whole: every buffer that outlives the launch is named after the run.

  The program is five stretches: host operations, the first pipelined call, host operations, the second pipelined call,
  one last host operation. The contents of the TensorCore's buffers at the five boundaries are a fold from the launch
  memory: a host stretch applies its operations, a pipelined call replaces its arrays by what its write-backs leave and
  keeps every other buffer. After the last stretch every unscoped buffer holds the last fold's contents; in particular
  the result buffer does.
-/
import proofs.«123383_j25056839205333_1_alg».proof.Proof.Gen.KernelIdeal.Frame

set_option maxRecDepth 16384

noncomputable section

namespace Cert.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and in
    every final state each unscoped buffer of each core holds the contents the fold through the five stretches gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The same with the result buffer and the six argument buffers picked out. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_all m ρ)

end Cert.KernelValue

end
-- ==== Proof.Spec.lean ====
/-
  The function both programs compute, one row at a time.

  A row of the input meets the weight matrix and the linear bias: 512 channel values `h c`. The channels fall into 16
  consecutive groups of 32; channel `chan g j` is lane `j` of group `g`. Each group is normalised by its own mean and
  by the reciprocal square root of its (clamped) mean square minus squared mean plus a small constant, scaled and
  shifted per channel, and the row's result is the least of the 512 normalised values. Everything is on the extended
  reals with the exact operations; the four float words that occur (32, 0, the small constant, +∞) are kept as the
  words' values and never evaluated.
-/
import Idealize.ShloMosaic.PureOps.Ideal
import Idealize.ShloMosaic.PureOps.Ideal.Laws
import Idealize.ShloMosaic.Lib.ValueIdx

noncomputable section

namespace Cert.RowSpec

open Idealize.ShloMosaic

/-- Lane `j` of group `g` among the 512 channels. -/
def chan (g : Fin 16) (j : Fin 32) : Fin 512 := ⟨g.val * 32 + j.val, by omega⟩

/-- The group a channel lies in, and its lane there. -/
def grp (c : Fin 512) : Fin 16 := ⟨c.val / 32, by omega⟩
def lane (c : Fin 512) : Fin 32 := ⟨c.val % 32, by omega⟩

theorem chan_grp_lane (c : Fin 512) : chan (grp c) (lane c) = c := Fin.ext (by
  show c.val / 32 * 32 + c.val % 32 = c.val; omega)

/-- The value of the word for 32.0, of the zero word, of the small constant's word and of +∞'s word. -/
def w32 : EReal := Ideal.ofBits .f32 0x42000000#32
def w0 : EReal := Ideal.ofBits .f32 0x00000000#32
def wEps : EReal := Ideal.ofBits .f32 0x3727C5AC#32
def wInf : EReal := Ideal.ofBits .f32 0x7F800000#32

/-- A group's mean: the sum of its 32 lanes over 32. -/
def mean (h : Fin 512 → EReal) (g : Fin 16) : EReal := Ideal.div (∑ j : Fin 32, h (chan g j)) w32

/-- A group's mean square. -/
def meanSq (h : Fin 512 → EReal) (g : Fin 16) : EReal := Ideal.div (∑ j : Fin 32, h (chan g j) * h (chan g j)) w32

/-- The reciprocal square root of the clamped variance plus the small constant. -/
def invStd (h : Fin 512 → EReal) (g : Fin 16) : EReal :=
  Ideal.rsqrt (max (meanSq h g - mean h g * mean h g) w0 + wEps)

/-- The normalised, scaled and shifted value of lane `j` of group `g`. -/
def normed (h : Fin 512 → EReal) (γ β : Fin 16 → Fin 32 → EReal) (g : Fin 16) (j : Fin 32) : EReal :=
  (h (chan g j) - mean h g) * invStd h g * γ g j + β g j

/-- The row's result: the least of the 512 normalised values (from +∞). -/
def rowMin (h : Fin 512 → EReal) (γ β : Fin 16 → Fin 32 → EReal) : EReal :=
  (Finset.univ : Finset (Fin 512)).fold min wInf (fun c => normed h γ β (grp c) (lane c))

/-- A row against the weights, plus the linear bias: channel `c`. -/
def lin (xrow : Fin 1024 → EReal) (W : Fin 512 → Fin 1024 → EReal) (b : Fin 512 → EReal) (c : Fin 512) : EReal :=
  (∑ k : Fin 1024, xrow k * W c k) + b c

end Cert.RowSpec

end
-- ==== Proof.KernelHost.lean ====
/-
  The host operations of the idealized kernel program, read at an index.

  Before the first pipelined call the host transposes the weight matrix (and changes its format, which is the identity on
  extended reals) and recasts the three parameter vectors; between the two calls it recasts the first call's column of
  row results as a row and the output bias as a column; after the second call it recasts the [512, 32768] table as the
  result. Every one of these moves an entry to another position and changes no value: entry (k, c) of the transposed
  weights is entry (c, k) of the weights, entry (g, j) of a recast parameter is its entry 32·g + j, and so on.
-/
import proofs.«123383_j25056839205333_1_alg».proof.Proof.Gen.KernelIdeal.Frame
import proofs.«123383_j25056839205333_1_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelValue

open Idealize.ShloMosaic Idealize.ShloMosaic.TcCoe Idealize.SL.Sem Idealize.ShloMosaic.ValueIdx
open Idealize.ShloMosaic.StableHlo
open Cert.KernelIdeal Cert.KernelIdeal.Gen Cert.RowSpec

variable (m : (ℓ : Loc nD τ sig) → Buf (Elt Ideal) ℓ) (ρ : Dev nD → PrngReg) (c : Dev nD)

/-! ## Before the first call -/

/-- The input rows are as launched. -/
theorem V1_arg0 : V1 m ρ c main_arg0 = m ((c : Thread nD τ).loc main_arg0) := by
  show StableHlo.after hostOps0 (W0 m ρ c) (Proc.devRef .tc main_arg0) = _
  after_results <;> rfl

/-- The weights as the first call finds them: transposed. -/
theorem V1_v1 : (V1 m ρ c main_v1 : S1024x512.Idx → EReal)
    = truncf (F := Ideal) .bf16 (transpose S1024x512 [1, 0] (m ((c : Thread nD τ).loc main_arg1)) transposes_S512x1024_S1024x512_1_0) bitsLt_bf16_f32 := by
  show StableHlo.after hostOps0 (W0 m ρ c) (Proc.devRef .tc main_v1) = _
  after_results <;> rfl

theorem V1_v2 : (V1 m ρ c main_v2 : S1x512.Idx → EReal)
    = shapeCast S1x512 (m ((c : Thread nD τ).loc main_arg2)) shapeCasts_S512_S1x512 := by
  show StableHlo.after hostOps0 (W0 m ρ c) (Proc.devRef .tc main_v2) = _
  after_results <;> rfl

theorem V1_v3 : (V1 m ρ c main_v3 : S16x32.Idx → EReal)
    = shapeCast S16x32 (m ((c : Thread nD τ).loc main_arg3)) shapeCasts_S512_S16x32 := by
  show StableHlo.after hostOps0 (W0 m ρ c) (Proc.devRef .tc main_v3) = _
  after_results <;> rfl

theorem V1_v4 : (V1 m ρ c main_v4 : S16x32.Idx → EReal)
    = shapeCast S16x32 (m ((c : Thread nD τ).loc main_arg4)) shapeCasts_S512_S16x32 := by
  show StableHlo.after hostOps0 (W0 m ρ c) (Proc.devRef .tc main_v4) = _
  after_results <;> rfl

/-- Entry (k, c') of the transposed weights is entry (c', k) of the weights. -/
theorem V1_v1_apply (k : Fin 1024) (c' : Fin 512) :
    (V1 m ρ c main_v1 : S1024x512.Idx → EReal) (ix2 k c') = m ((c : Thread nD τ).loc main_arg1) (ix2 c' k) := by
  rw [V1_v1]
  exact transpose_ix2_apply (m ((c : Thread nD τ).loc main_arg1)) transposes_S512x1024_S1024x512_1_0 k c'

/-- Entry (0, c') of the recast linear bias is its entry c'. -/
theorem V1_v2_apply (u : Fin 1) (c' : Fin 512) :
    (V1 m ρ c main_v2 : S1x512.Idx → EReal) (ix2 u c') = m ((c : Thread nD τ).loc main_arg2) (ix1 c') := by
  rw [V1_v2]
  exact shapeCast_a_1a_apply (m ((c : Thread nD τ).loc main_arg2)) shapeCasts_S512_S1x512 u c'

/-- Entry (g, j) of a length-512 vector recast as 16 rows of 32 is its entry 32·g + j. -/
theorem shapeCast_512_16x32_apply {α : Type} (x : S512.Idx → α) (h : S512.ShapeCasts S16x32) (g : Fin 16) (j : Fin 32) :
    shapeCast S16x32 x h (ix2 g j) = x (ix1 (chan g j)) :=
  shapeCast_apply x h _ _ (by
    rw [Shape.rowMajor_val_two, Shape.rowMajor_val_one]
    rfl)

theorem V1_v3_apply (g : Fin 16) (j : Fin 32) :
    (V1 m ρ c main_v3 : S16x32.Idx → EReal) (ix2 g j) = m ((c : Thread nD τ).loc main_arg3) (ix1 (chan g j)) := by
  rw [V1_v3]
  exact shapeCast_512_16x32_apply _ _ g j

theorem V1_v4_apply (g : Fin 16) (j : Fin 32) :
    (V1 m ρ c main_v4 : S16x32.Idx → EReal) (ix2 g j) = m ((c : Thread nD τ).loc main_arg4) (ix1 (chan g j)) := by
  rw [V1_v4]
  exact shapeCast_512_16x32_apply _ _ g j

/-! ## Between the two calls -/

/-- The second call's row operand: the first call's result column recast as a row. -/
theorem V3_v6 : (V3 m ρ c main_v6 : S1x32768.Idx → EReal)
    = shapeCast S1x32768 ((dat0 (V1 m ρ) c).arrAt 5 cfg0.N) shapeCasts_S32768x1_S1x32768 := by
  show StableHlo.after hostOps1 (W2 m ρ c) (Proc.devRef .tc main_v6) = _
  after_results
  rw [show W2 m ρ c (Proc.devRef .tc main_v5) = (dat0 (V1 m ρ) c).arrAt 5 cfg0.N from W2_arr m ρ c 5]
  rfl

theorem V3_v6_apply (u : Fin 1) (n : Fin 32768) :
    (V3 m ρ c main_v6 : S1x32768.Idx → EReal) (ix2 u n) = ((dat0 (V1 m ρ) c).arrAt 5 cfg0.N : S32768x1.Idx → EReal) (ix2 n (0 : Fin 1)) := by
  rw [V3_v6]
  exact shapeCast_apply _ shapeCasts_S32768x1_S1x32768 _ _ (by
    have hu : u.val = 0 := by omega
    rw [Shape.rowMajor_val_two, Shape.rowMajor_val_two]
    show n.val * 1 + 0 = u.val * 32768 + n.val
    rw [hu]; omega)

/-- The output bias is untouched until the second call's entry. -/
theorem W2_arg5 : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results <;> rfl

/-- The second call's column operand: the output bias recast as a column. -/
theorem V3_v7 : (V3 m ρ c main_v7 : S512x1.Idx → EReal)
    = shapeCast S512x1 (m ((c : Thread nD τ).loc main_arg5)) shapeCasts_S1x512x1x1_S512x1 := by
  show StableHlo.after hostOps1 (W2 m ρ c) (Proc.devRef .tc main_v7) = _
  after_results
  rw [W2_arg5]
  rfl

theorem V3_v7_apply (c' : Fin 512) (u : Fin 1) :
    (V3 m ρ c main_v7 : S512x1.Idx → EReal) (ix2 c' u) = m ((c : Thread nD τ).loc main_arg5) (ix4 (0 : Fin 1) c' (0 : Fin 1) (0 : Fin 1)) := by
  rw [V3_v7]
  exact shapeCast_apply _ shapeCasts_S1x512x1x1_S512x1 _ _ (by
    have hu : u.val = 0 := by omega
    rw [Shape.rowMajor_val_four, Shape.rowMajor_val_two]
    show ((0 * 512 + c'.val) * 1 + 0) * 1 + 0 = c'.val * 1 + u.val
    rw [hu]; omega)

/-! ## After the second call -/

/-- The result buffer: the second call's table recast. -/
theorem W5_v9 : (W5 m ρ c (Proc.devRef .tc main_v9) : S1x512x32768x1.Idx → EReal)
    = shapeCast S1x512x32768x1 ((dat1 (V3 m ρ) c).arrAt 2 cfg1.N) shapeCasts_S512x32768_S1x512x32768x1 := by
  show StableHlo.after hostOps2 (W4 m ρ c) (Proc.devRef .tc main_v9) = _
  after_results
  rw [show W4 m ρ c (Proc.devRef .tc main_v8) = (dat1 (V3 m ρ) c).arrAt 2 cfg1.N from W4_arr m ρ c 2]
  rfl

theorem W5_v9_apply (u : Fin 1) (c' : Fin 512) (n : Fin 32768) (v : Fin 1) :
    (W5 m ρ c (Proc.devRef .tc main_v9) : S1x512x32768x1.Idx → EReal) (ix4 u c' n v)
      = ((dat1 (V3 m ρ) c).arrAt 2 cfg1.N : S512x32768.Idx → EReal) (ix2 c' n) := by
  rw [W5_v9]
  exact shapeCast_apply _ shapeCasts_S512x32768_S1x512x32768x1 _ _ (by
    have hu : u.val = 0 := by omega
    have hv : v.val = 0 := by omega
    rw [Shape.rowMajor_val_two, Shape.rowMajor_val_four]
    show c'.val * 32768 + n.val = ((u.val * 512 + c'.val) * 32768 + n.val) * 1 + v.val
    rw [hu, hv]; omega)

end Cert.KernelValue

end
-- ==== Proof.KernelRow.lean ====
/-
  One row of the first program's body, as arithmetic on the extended reals.

  The body takes a block of 2048 rows of 1024 entries, the 1024 × 512 weights, a bias row of 512 and two 16 × 32 tables of
  per-channel scale and shift. It forms the rows times the weights plus the bias (512 channels a row), splits the channels
  into 16 groups of 32 lanes, normalises each group by its mean and by the reciprocal square root of its clamped variance
  plus a small constant, scales and shifts per channel, and keeps the least of the row's 512 values. Here each layout
  operation and each of the two reductions is read at an index given by coordinates, the matrix product is read as a sum
  over the contraction's coordinate, and the whole is identified, row by row, with `Cert.RowSpec.rowMin` of
  `Cert.RowSpec.lin` (`pay_row`).
-/
import proofs.«123383_j25056839205333_1_alg».proof.Proof.Gen.KernelIdeal.Skeleton
import proofs.«123383_j25056839205333_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelRow

open Idealize.ShloMosaic Idealize.ShloMosaic.ValueIdx Cert.KernelIdeal Cert.KernelIdeal.Gen Cert.RowSpec

/-! ## The layout operations of the body, read at an index given by coordinates -/

section Layout
variable {α : Type}

/-- A `[2048, 512]` array seen as `[2048, 16, 32]`: lane `j` of group `g` of row `p` is channel `chan g j` of the row. -/
theorem split_apply (v : S2048x512.Idx → α) (h : S2048x512.ShapeCasts S2048x16x32) (p : Fin 2048) (g : Fin 16) (j : Fin 32) :
    shapeCast S2048x16x32 v h (ix3 p g j) = v (ix2 p (chan g j)) :=
  shapeCast_apply v h _ _ (by
    rw [Shape.rowMajor_val_two, Shape.rowMajor_val_three]
    show p.val * 512 + (g.val * 32 + j.val) = (p.val * 16 + g.val) * 32 + j.val
    omega)

/-- The way back: channel `c` of row `p` is lane `lane c` of group `grp c`. -/
theorem merge_apply (v : S2048x16x32.Idx → α) (h : S2048x16x32.ShapeCasts S2048x512) (p : Fin 2048) (c : Fin 512) :
    shapeCast S2048x512 v h (ix2 p c) = v (ix3 p (grp c) (lane c)) :=
  shapeCast_apply v h _ _ (by
    rw [Shape.rowMajor_val_two, Shape.rowMajor_val_three]
    show (p.val * 16 + c.val / 32) * 32 + c.val % 32 = p.val * 512 + c.val
    omega)

/-- A `[2048, 16]` array given a trailing unit axis. -/
theorem keep_apply (v : S2048x16.Idx → α) (h : S2048x16.ShapeCasts S2048x16x1) (p : Fin 2048) (g : Fin 16) (u : Fin 1) :
    shapeCast S2048x16x1 v h (ix3 p g u) = v (ix2 p g) :=
  shapeCast_apply v h _ _ (by
    rw [Shape.rowMajor_val_two, Shape.rowMajor_val_three]
    show p.val * 16 + g.val = (p.val * 16 + g.val) * 1 + u.val
    omega)

/-- A `[2048]` array given a trailing unit axis. -/
theorem col_apply (v : S2048.Idx → α) (h : S2048.ShapeCasts S2048x1) (p : Fin 2048) (u : Fin 1) :
    shapeCast S2048x1 v h (ix2 p u) = v (ix1 p) :=
  shapeCast_apply v h _ _ (by
    rw [Shape.rowMajor_val_one, Shape.rowMajor_val_two]
    show p.val = p.val * 1 + u.val
    omega)

/-- One value per (row, group) repeated along the 32 lanes. -/
theorem lanes_apply (v : S2048x16x1.Idx → α) (h : S2048x16x1.Broadcasts S2048x16x32) (p : Fin 2048) (g : Fin 16) (j : Fin 32) :
    broadcastTo S2048x16x32 v h (ix3 p g j) = v (ix3 p g (0 : Fin 1)) :=
  broadcastTo_apply v h (ix3 p g j) (ix3 p g (0 : Fin 1)) fun ax => by
    match ax with
    | ⟨0, _⟩ => show p.val = if (2048 : Nat) = 1 then 0 else p.val; rw [if_neg (by decide)]
    | ⟨1, _⟩ => show g.val = if (16 : Nat) = 1 then 0 else g.val; rw [if_neg (by decide)]
    | ⟨2, _⟩ => rfl

/-- One `[1, 16, 32]` table repeated along the 2048 rows. -/
theorem rows3_apply (v : S1x16x32.Idx → α) (h : S1x16x32.Broadcasts S2048x16x32) (p : Fin 2048) (g : Fin 16) (j : Fin 32) :
    broadcastTo S2048x16x32 v h (ix3 p g j) = v (ix3 (0 : Fin 1) g j) :=
  broadcastTo_apply v h (ix3 p g j) (ix3 (0 : Fin 1) g j) fun ax => by
    match ax with
    | ⟨0, _⟩ => rfl
    | ⟨1, _⟩ => show g.val = if (16 : Nat) = 1 then 0 else g.val; rw [if_neg (by decide)]
    | ⟨2, _⟩ => show j.val = if (32 : Nat) = 1 then 0 else j.val; rw [if_neg (by decide)]

end Layout

/-! ## The two reductions of the body -/

/-- The sum along the 32 lanes, at row `p` and group `g`. -/
theorem lanesum_apply (v : FVec Ideal S2048x16x32 .f32) (h : S2048x16x32.Reduces [2] S2048x16) (hφ : FKind.Formats .f32)
    (hacc : (0x00000000#32 : BitVec 32) = 0x00000000#32) (p : Fin 2048) (g : Fin 16) :
    multiReduction .add [2] S2048x16 v 0x00000000#32 h hφ hacc (ix2 p g) = ∑ j : Fin 32, v (ix3 p g j) := by
  refine (Ideal.multiReduction_add_single v 0x00000000#32 h hφ hacc (ix2 p g)).trans ?_
  refine Finset.sum_congr rfl fun j _ => congrArg v (funext fun c => Fin.ext ?_)
  match c with
  | ⟨0, _⟩ => rfl
  | ⟨1, _⟩ => rfl
  | ⟨2, _⟩ => rfl

/-- The minimum along the 512 channels, at row `p`: the fold of `min` from the accumulator word's value. -/
theorem rowmin_apply (v : FVec Ideal S2048x512 .f32) (h : S2048x512.Reduces [1] S2048) (hφ : FKind.Formats .f32)
    (hacc : (0x7F800000#32 : BitVec 32) = 0x7F800000#32) (p : Fin 2048) :
    multiReduction .minimumf [1] S2048 v 0x7F800000#32 h hφ hacc (ix1 p)
      = (Finset.univ : Finset (Fin 512)).fold min wInf (fun c => v (ix2 p c)) := by
  refine (multiReduction_minimumf_eq_fold v 0x7F800000#32 h hφ hacc (ix1 p)).trans ?_
  refine (h.fold_filter_drop_single FloatOps.minimumf _ v (ix1 p)).trans ?_
  have e : (v ∘ h.lift (ix1 p)) = fun c : Fin 512 => v (ix2 p c) :=
    funext fun c => congrArg v (funext fun a => Fin.ext (by
      match a with
      | ⟨0, _⟩ => rfl
      | ⟨1, _⟩ => rfl))
  rw [e]
  rfl

/-! ## The matrix product plus the bias -/

/-- The body's first value of shape `[2048, 512]`: the rows times the weights, plus the bias row. -/
def lin8 (x0 : Vec Ideal S2048x1024 .f32) (x1 : Vec Ideal S1024x512 .bf16) (x2 : Vec Ideal S1x512 .f32) : FVec Ideal S2048x512 .f32 :=
  addf (matmul dot_S2048x1024_S1024x512_S2048x512_1_0_0_1_n_n none (truncf .bf16 x0 bitsLt_bf16_f32 : FVec Ideal S2048x1024 .bf16)
      (shapeCast S1024x512 x1 shapeCasts_S1024x512_S1024x512 : FVec Ideal S1024x512 .bf16) (constant S2048x512 .f32 0x00000000#32))
    (broadcastTo S2048x512 (shapeCast S1x512 x2 shapeCasts_S1x512_S1x512 : FVec Ideal S1x512 .f32) broadcasts_S1x512_S2048x512)

/-- The product's left operand is read at the output's row … -/
theorem gemm_lhs_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide),
    dif_pos (show (0 : Fin S2048x1024.rank) ∈ dot_S2048x1024_S1024x512_S2048x512_1_0_0_1_n_n.lhsNonContracting by decide)]
  rfl
/-- … and the contraction's coordinate; -/
theorem gemm_lhs_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
/-- the right operand at the contraction's coordinate … -/
theorem gemm_rhs_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
/-- … and the output's column. -/
theorem gemm_rhs_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide),
    dif_pos (show (1 : Fin S1024x512.rank) ∈ dot_S2048x1024_S1024x512_S2048x512_1_0_0_1_n_n.rhsNonContracting by decide)]
  rfl

/-- The product read at `(p, c)`: the sum over `k` of the row's entry times the weight. -/
theorem gemm_apply (a : FVec Ideal S2048x1024 .bf16) (b : FVec Ideal S1024x512 .bf16) (p : Fin 2048) (c : Fin 512) :
    matmul dot_S2048x1024_S1024x512_S2048x512_1_0_0_1_n_n none a b (constant S2048x512 .f32 0x00000000#32) (ix2 p c)
      = ∑ k : Fin 1024, a (ix2 p k) * b (ix2 k c) := by
  simp only [matmul]
  rw [Ideal.matmul_constant_zero_apply,
    ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 p c)
      ((contrEquiv1 dot_S2048x1024_S1024x512_S2048x512_1_0_0_1_n_n 1024 rfl rfl).symm k) = ix2 p k :=
    funext fun ax => Fin.ext (by
      match ax with
      | ⟨0, _⟩ => exact gemm_lhs_0 _ _
      | ⟨1, _⟩ => exact (gemm_lhs_1 _ _).trans hk)
  have er : dot_S2048x1024_S1024x512_S2048x512_1_0_0_1_n_n.rhsIdx (ix2 p c)
      ((contrEquiv1 dot_S2048x1024_S1024x512_S2048x512_1_0_0_1_n_n 1024 rfl rfl).symm k) = ix2 k c :=
    funext fun ax => Fin.ext (by
      match ax with
      | ⟨0, _⟩ => exact (gemm_rhs_0 _ _).trans hk
      | ⟨1, _⟩ => exact gemm_rhs_1 _ _)
  rw [el, er]

/-- The first value at `(p, c)` is channel `c` of the row against the weights plus the bias. -/
theorem lin8_apply (x0 : Vec Ideal S2048x1024 .f32) (x1 : Vec Ideal S1024x512 .bf16) (x2 : Vec Ideal S1x512 .f32)
    (p : Fin 2048) (c : Fin 512) :
    lin8 x0 x1 x2 (ix2 p c)
      = lin (fun k => x0 (ix2 p k)) (fun c k => x1 (ix2 k c)) (fun c => x2 (ix2 (0 : Fin 1) c)) c := by
  unfold lin8
  rw [shapeCast_self, shapeCast_self, addf_apply, gemm_apply, broadcastTo_1b_ab_apply]
  rfl

/-! ## The normalisation of the 16 groups -/

/-- A group statistic: the sum of a `[2048, 16, 32]` value along its lanes, kept as `[2048, 16, 1]`, over the word for 32. -/
def gstat (v : FVec Ideal S2048x16x32 .f32) : FVec Ideal S2048x16x1 .f32 :=
  divf (shapeCast S2048x16x1
      (multiReduction .add [2] S2048x16 v 0x00000000#32 reduces_S2048x16x32_S2048x16 (.inl rfl) rfl : FVec Ideal S2048x16 .f32)
      shapeCasts_S2048x16_S2048x16x1)
    (broadcast S2048x16x1 (Scalar.ofBits .f32 0x42000000#32))

theorem gstat_apply (v : FVec Ideal S2048x16x32 .f32) (p : Fin 2048) (g : Fin 16) (u : Fin 1) :
    gstat v (ix3 p g u) = Ideal.div (∑ j : Fin 32, v (ix3 p g j)) w32 := by
  unfold gstat
  rw [divf_apply, keep_apply, lanesum_apply]
  rfl

/-- The reciprocal square root of the clamped variance plus the small constant, from the two statistics. -/
def rstd (m q : FVec Ideal S2048x16x1 .f32) : FVec Ideal S2048x16x1 .f32 :=
  rsqrt (addf (maximumf (subf q (mulf m m)) (broadcast S2048x16x1 (Scalar.ofBits .f32 0x00000000#32)))
    (broadcast S2048x16x1 (Scalar.ofBits .f32 0x3727C5AC#32)))

theorem rstd_apply (m q : FVec Ideal S2048x16x1 .f32) (i : S2048x16x1.Idx) :
    rstd m q i = Ideal.rsqrt (max (q i - m i * m i) w0 + wEps) := rfl

/-- A `[16, 32]` table of per-channel parameters repeated along the rows. -/
def param (x : Vec Ideal S16x32 .f32) : FVec Ideal S2048x16x32 .f32 :=
  broadcastTo S2048x16x32
    (shapeCast S1x16x32 (shapeCast S16x32 x shapeCasts_S16x32_S16x32 : FVec Ideal S16x32 .f32) shapeCasts_S16x32_S1x16x32 : FVec Ideal S1x16x32 .f32)
    broadcasts_S1x16x32_S2048x16x32

theorem param_apply (x : Vec Ideal S16x32 .f32) (p : Fin 2048) (g : Fin 16) (j : Fin 32) :
    param x (ix3 p g j) = x (ix2 g j) := by
  unfold param
  rw [rows3_apply, shapeCast_ab_1ab_apply, shapeCast_self]

/-- The body from its first `[2048, 512]` value to the normalised, scaled and shifted `[2048, 16, 32]` value. -/
def gn (h8 : FVec Ideal S2048x512 .f32) (x3 x4 : Vec Ideal S16x32 .f32) : FVec Ideal S2048x16x32 .f32 :=
  have v9 : FVec Ideal S2048x16x32 .f32 := shapeCast S2048x16x32 h8 shapeCasts_S2048x512_S2048x16x32
  have m : FVec Ideal S2048x16x1 .f32 := gstat v9
  have q : FVec Ideal S2048x16x1 .f32 := gstat (mulf v9 v9)
  addf (mulf (mulf (subf v9 (broadcastTo S2048x16x32 m broadcasts_S2048x16x1_S2048x16x32))
      (broadcastTo S2048x16x32 (rstd m q) broadcasts_S2048x16x1_S2048x16x32)) (param x3)) (param x4)

theorem gn_apply (h8 : FVec Ideal S2048x512 .f32) (x3 x4 : Vec Ideal S16x32 .f32) (p : Fin 2048) (g : Fin 16) (j : Fin 32) :
    gn h8 x3 x4 (ix3 p g j)
      = normed (fun c => h8 (ix2 p c)) (fun g j => x3 (ix2 g j)) (fun g j => x4 (ix2 g j)) g j := by
  unfold gn
  rw [addf_apply, mulf_apply, mulf_apply, subf_apply, lanes_apply, lanes_apply, param_apply, param_apply, rstd_apply,
    gstat_apply, gstat_apply, split_apply]
  simp only [mulf_apply, split_apply]
  rfl

/-! ## The body at one row -/

/-- The body's `[2048, 512]` value is the normalisation of the matrix product plus bias, seen as `[2048, 512]` again. -/
theorem pay2_eq (x0 : Vec Ideal S2048x1024 .f32) (x1 : Vec Ideal S1024x512 .bf16) (x2 : Vec Ideal S1x512 .f32)
    (x3 x4 : Vec Ideal S16x32 .f32) :
    k0_pay2 (F := Ideal) x0 x1 x2 x3 x4
      = shapeCast S2048x512 (gn (lin8 x0 x1 x2) x3 x4) shapeCasts_S2048x16x32_S2048x512 := rfl

/-- Its value at row `p` and channel `c`: the normalised value of the channel's lane in the channel's group. -/
theorem pay2_apply (x0 : Vec Ideal S2048x1024 .f32) (x1 : Vec Ideal S1024x512 .bf16) (x2 : Vec Ideal S1x512 .f32)
    (x3 x4 : Vec Ideal S16x32 .f32) (p : Fin 2048) (c : Fin 512) :
    k0_pay2 (F := Ideal) x0 x1 x2 x3 x4 (ix2 p c)
      = normed (lin (fun k => x0 (ix2 p k)) (fun c k => x1 (ix2 k c)) (fun c => x2 (ix2 (0 : Fin 1) c)))
          (fun g j => x3 (ix2 g j)) (fun g j => x4 (ix2 g j)) (grp c) (lane c) := by
  rw [pay2_eq, merge_apply, gn_apply]
  exact congrArg (fun h => normed h (fun g j => x3 (ix2 g j)) (fun g j => x4 (ix2 g j)) (grp c) (lane c))
    (funext fun c' => lin8_apply x0 x1 x2 p c')

/-- The stored column at row `p`: the least of the row's 512 normalised values. -/
theorem pay_row (x0 : Vec Ideal S2048x1024 .f32) (x1 : Vec Ideal S1024x512 .bf16) (x2 : Vec Ideal S1x512 .f32)
    (x3 x4 : Vec Ideal S16x32 .f32) (p : Fin 2048) :
    k0_pay1 (F := Ideal) (k0_pay2 (F := Ideal) x0 x1 x2 x3 x4) (ix2 p (0 : Fin 1))
      = rowMin (lin (fun k => x0 (ix2 p k)) (fun c k => x1 (ix2 k c)) (fun c => x2 (ix2 (0 : Fin 1) c)))
          (fun g j => x3 (ix2 g j)) (fun g j => x4 (ix2 g j)) := by
  generalize hV : k0_pay2 (F := Ideal) x0 x1 x2 x3 x4 = V
  unfold k0_pay1 rowMin
  rw [col_apply, rowmin_apply]
  refine congrArg (fun f => Finset.fold min wInf f Finset.univ) (funext fun c => ?_)
  rw [← hV]
  exact pay2_apply x0 x1 x2 x3 x4 p c

end Cert.KernelRow

end
-- ==== Proof.RowOf.lean ====
/-
  The row result as a function of the argument arrays: row n of the input against the weights and the linear bias, then
  the group normalisation with the scale and shift vectors read 32 to a group, then the least value.
-/
import proofs.«123383_j25056839205333_1_alg».proof.Proof.Spec

noncomputable section

namespace Cert.RowSpec

open Idealize.ShloMosaic Idealize.ShloMosaic.ValueIdx

/-- The result of row `n`. -/
def rowOf (x : (⟨2, ![32768, 1024]⟩ : Shape).Idx → EReal) (W : (⟨2, ![512, 1024]⟩ : Shape).Idx → EReal)
    (b γ β : (⟨1, ![512]⟩ : Shape).Idx → EReal) (n : Fin 32768) : EReal :=
  rowMin (lin (fun k => x (ix2 n k)) (fun c' k => W (ix2 c' k)) (fun c' => b (ix1 c')))
    (fun g j => γ (ix1 (chan g j))) (fun g j => β (ix1 (chan g j)))

/-- The whole result, entry (0, c', n, 0): the output bias of channel c' plus the result of row n. -/
def outOf (x : (⟨2, ![32768, 1024]⟩ : Shape).Idx → EReal) (W : (⟨2, ![512, 1024]⟩ : Shape).Idx → EReal)
    (b γ β : (⟨1, ![512]⟩ : Shape).Idx → EReal) (bias : (⟨4, ![1, 512, 1, 1]⟩ : Shape).Idx → EReal) :
    (⟨4, ![1, 512, 32768, 1]⟩ : Shape).Idx → EReal := fun i =>
  bias (ix4 (0 : Fin 1) (⟨(i 1).val, (i 1).isLt⟩ : Fin 512) (0 : Fin 1) (0 : Fin 1))
    + rowOf x W b γ β (⟨(i 2).val, (i 2).isLt⟩ : Fin 32768)

end Cert.RowSpec

end
-- ==== Proof.Region0.lean ====
/-
  The first pipelined call: the column of row results.

  At grid point t the call's body sees rows 2048·t … 2048·t + 2047 of the input, the whole transposed weight matrix, the
  linear bias as a row and the scale and shift vectors as 16 rows of 32, and writes the 2048 row results of its rows as
  block t of a [32768, 1] column. The body's arithmetic at one row is the row specification; each block read is an entry
  of an argument array; the sixteen blocks tile the column. So after the call entry (n, 0) of the column is the result
  of row n of the arguments.
-/
import proofs.«123383_j25056839205333_1_alg».proof.Proof.KernelHost
import proofs.«123383_j25056839205333_1_alg».proof.Proof.KernelRow
import proofs.«123383_j25056839205333_1_alg».proof.Proof.RowOf

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.RowSpec

theorem hz0 : (![0, 0] : Fin 2 → Nat) = fun _ => 0 := funext fun a => by fin_cases a <;> rfl

/-- The body's value at any index y of its [2048, 1] block, from whatever the loaded blocks hold at the entries that
    row reads: row (y 0) of the input block, the weights, the bias row, the scale and shift rows. -/
theorem body0_apply (x0 : Vec Ideal S2048x1024 .f32) (x1 : Vec Ideal S1024x512 .bf16) (x2 : Vec Ideal S1x512 .f32)
    (x3 x4 : Vec Ideal S16x32 .f32) (y : S2048x1.Idx)
    (xrow : Fin 1024 → EReal) (W : Fin 512 → Fin 1024 → EReal) (b : Fin 512 → EReal) (γ β : Fin 16 → Fin 32 → EReal)
    (h0 : ∀ k, x0 (ix2 (⟨(y 0).val, (y 0).isLt⟩ : Fin 2048) k) = xrow k) (h1 : ∀ c' k, x1 (ix2 k c') = W c' k)
    (h2 : ∀ c', x2 (ix2 (0 : Fin 1) c') = b c') (h3 : ∀ g j, x3 (ix2 g j) = γ g j) (h4 : ∀ g j, x4 (ix2 g j) = β g j) :
    k0_pay1 (F := Ideal) (k0_pay2 (F := Ideal) x0 x1 x2 x3 x4) y = rowMin (lin xrow W b) γ β := by
  have hy : ix2 (⟨(y 0).val, (y 0).isLt⟩ : Fin 2048) (0 : Fin 1) = y := funext fun a => by
    match a with
    | ⟨0, _⟩ => rfl
    | ⟨1, _⟩ => exact Fin.ext (by have h : (y 1).val < 1 := (y 1).isLt; show 0 = (y 1).val; omega)
  have h := Cert.KernelRow.pay_row x0 x1 x2 x3 x4 ⟨(y 0).val, (y 0).isLt⟩
  rw [hy] at h
  rw [h, show (fun k => x0 (ix2 (⟨(y 0).val, (y 0).isLt⟩ : Fin 2048) k)) = xrow from funext h0,
    show (fun c' k => x1 (ix2 k c')) = W from funext fun c' => funext fun k => h1 c' k,
    show (fun c' => x2 (ix2 (0 : Fin 1) c')) = b from funext h2,
    show (fun g j => x3 (ix2 g j)) = γ from funext fun g => funext fun j => h3 g j,
    show (fun g j => x4 (ix2 g j)) = β from funext fun g => funext fun j => h4 g j]

/-- Where the six windows' blocks sit at point t: the input rows and the result column move along axis 0 with the
    point, the four parameter windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b)) (c : Dev nD)

/-- Entry (p, k) of the input window's block at point t is entry (2048·t + p, k) of the input. -/
theorem iblk0_0_apply (t : Fin cfg0.N) (p : Fin 2048) (k : Fin 1024) (n : Fin 32768) (hn : n.val = t.val * 2048 + p.val) :
    (iblk0 V c 0 t : Vec Ideal S2048x1024 .f32) (ix2 p k) = (V c main_arg0 : S32768x1024.Idx → EReal) (ix2 n k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2048 + 1 * p.val = n.val; rw [e0, hn]; omega
  | ⟨1, _⟩ => show win0_0.index t 1 * 1024 + 1 * k.val = k.val; rw [e1]; omega

/-- Each parameter window's one block is its whole array. -/
theorem iblk0_1_apply (t : Fin cfg0.N) (k : Fin 1024) (c' : Fin 512) :
    (iblk0 V c 1 t : Vec Ideal S1024x512 .bf16) (ix2 k c') = (V c main_v1 : S1024x512.Idx → EReal) (ix2 k c') := by
  obtain ⟨-, -, e2, e3, -⟩ := idx0 t
  unfold iblk0
  rw [View.read_apply]
  show V c main_v1 _ = V c main_v1 _
  congr 1
  funext a
  apply Fin.ext
  match a with
  | ⟨0, _⟩ => show win0_1.index t 0 * 1024 + 1 * k.val = k.val; rw [e2]; omega
  | ⟨1, _⟩ => show win0_1.index t 1 * 512 + 1 * c'.val = c'.val; rw [e3]; omega

theorem iblk0_2_apply (t : Fin cfg0.N) (u : Fin 1) (c' : Fin 512) :
    (iblk0 V c 2 t : Vec Ideal S1x512 .f32) (ix2 u c') = (V c main_v2 : S1x512.Idx → EReal) (ix2 u c') := by
  obtain ⟨-, -, -, -, e4, e5, -⟩ := idx0 t
  unfold iblk0
  rw [View.read_apply]
  show V c main_v2 _ = V c main_v2 _
  congr 1
  funext a
  apply Fin.ext
  match a with
  | ⟨0, _⟩ => show win0_2.index t 0 * 1 + 1 * u.val = u.val; rw [e4]; omega
  | ⟨1, _⟩ => show win0_2.index t 1 * 512 + 1 * c'.val = c'.val; rw [e5]; omega

theorem iblk0_3_apply (t : Fin cfg0.N) (g : Fin 16) (j : Fin 32) :
    (iblk0 V c 3 t : Vec Ideal S16x32 .f32) (ix2 g j) = (V c main_v3 : S16x32.Idx → EReal) (ix2 g j) := by
  obtain ⟨-, -, -, -, -, -, e6, e7, -⟩ := idx0 t
  unfold iblk0
  rw [View.read_apply]
  show V c main_v3 _ = V c main_v3 _
  congr 1
  funext a
  apply Fin.ext
  match a with
  | ⟨0, _⟩ => show win0_3.index t 0 * 16 + 1 * g.val = g.val; rw [e6]; omega
  | ⟨1, _⟩ => show win0_3.index t 1 * 32 + 1 * j.val = j.val; rw [e7]; omega

theorem iblk0_4_apply (t : Fin cfg0.N) (g : Fin 16) (j : Fin 32) :
    (iblk0 V c 4 t : Vec Ideal S16x32 .f32) (ix2 g j) = (V c main_v4 : S16x32.Idx → EReal) (ix2 g j) := by
  obtain ⟨-, -, -, -, -, -, -, -, e8, e9, -⟩ := idx0 t
  unfold iblk0
  rw [View.read_apply]
  show V c main_v4 _ = V c main_v4 _
  congr 1
  funext a
  apply Fin.ext
  match a with
  | ⟨0, _⟩ => show win0_4.index t 0 * 16 + 1 * g.val = g.val; rw [e8]; omega
  | ⟨1, _⟩ => show win0_4.index t 1 * 32 + 1 * j.val = j.val; rw [e9]; omega

end

variable (m : (ℓ : Loc nD τ sig) → Buf (Elt Ideal) ℓ) (ρ : Dev nD → PrngReg) (c : Dev nD)

/-- The column of row results of the launch arguments. -/
def col0 : S32768x1.Idx → EReal := fun i =>
  rowOf (m ((c : Thread nD τ).loc main_arg0)) (m ((c : Thread nD τ).loc main_arg1)) (m ((c : Thread nD τ).loc main_arg2))
    (m ((c : Thread nD τ).loc main_arg3)) (m ((c : Thread nD τ).loc main_arg4)) (⟨(i 0).val, (i 0).isLt⟩ : Fin 32768)

/-- What point t writes back is block t of the column of row results. -/
theorem flushed0_eq (t : Fin cfg0.N) :
    (dat0 (V1 m ρ) c).flushed 5 t = ((cfg0.win 5).blk t).view.read (Elt Ideal) (col0 m c) := by
  show (cfg0.win 5).cut (grid0.coords t) ((dat0 (V1 m ρ) c).after 5 t) = _
  rw [after0_5]
  unfold out0_5
  rw [View.canon_unit_zero hz0]
  simp only [View.ld_unit_zero (S := S2048x1024) hz0, View.ld_unit_zero (S := S1024x512) hz0,
    View.ld_unit_zero (S := S1x512) hz0, View.ld_unit_zero (S := S16x32) hz0]
  obtain ⟨-, -, -, -, -, -, -, -, -, -, e10, e11⟩ := idx0 t
  funext y
  have hN : cfg0.N = 16 := N_0
  have ht : t.val < 16 := hN ▸ t.isLt
  have hy0 : (y 0).val < 2048 := (y 0).isLt
  show k0_pay1 (F := Ideal) (k0_pay2 (F := Ideal) (iblk0 (V1 m ρ) c 0 t) (iblk0 (V1 m ρ) c 1 t) (iblk0 (V1 m ρ) c 2 t)
      (iblk0 (V1 m ρ) c 3 t) (iblk0 (V1 m ρ) c 4 t)) y
    = col0 m c (((cfg0.win 5).blk t).view.emb y)
  unfold col0 rowOf
  refine body0_apply (iblk0 (V1 m ρ) c 0 t) (iblk0 (V1 m ρ) c 1 t) (iblk0 (V1 m ρ) c 2 t) (iblk0 (V1 m ρ) c 3 t)
    (iblk0 (V1 m ρ) c 4 t) y _ _ _ _ _ (fun k => ?_) (fun c' k => ?_) (fun c' => ?_) (fun g j => ?_) (fun g j => ?_)
  · refine (iblk0_0_apply (V1 m ρ) c t ⟨(y 0).val, hy0⟩ k _ ?_).trans (congrFun (V1_arg0 m ρ c) _)
    show win0_5.index t 0 * 2048 + 1 * (y 0).val = t.val * 2048 + (y 0).val
    rw [e10]; omega
  · exact (iblk0_1_apply (V1 m ρ) c t k c').trans (V1_v1_apply m ρ c k c')
  · exact (iblk0_2_apply (V1 m ρ) c t (0 : Fin 1) c').trans (V1_v2_apply m ρ c (0 : Fin 1) c')
  · exact (iblk0_3_apply (V1 m ρ) c t g j).trans (V1_v3_apply m ρ c g j)
  · exact (iblk0_4_apply (V1 m ρ) c t g j).trans (V1_v4_apply m ρ c g j)

/-- An index of the column is in point t's block iff each coordinate is in the block's range. -/
theorem mem_blk0 (t : Fin cfg0.N) (i : S32768x1.Idx) :
    i ∈ ((cfg0.win 5).blk t).view.set ↔ ∀ a : Fin 2, win0_5.index t a * S2048x1.size a ≤ (i a).val
      ∧ (i a).val < win0_5.index t a * S2048x1.size a + S2048x1.size a := by
  show i ∈ ((View.whole main_v5).slice (win0_5.rect t)).set ↔ _
  rw [View.set_slice_whole, Rect.mem_set_unit]
  exact Iff.rfl

/-- After the call the column's array holds the row results. -/
theorem final0 : ((dat0 (V1 m ρ) c).arrAt 5 cfg0.N : S32768x1.Idx → EReal) = col0 m c :=
  (dat0 (V1 m ρ) c).arrAt_eq_of_cover 5 (col0 m c) (fun t _ => flushed0_eq m ρ c t) fun i => by
    have hN : cfg0.N = 16 := N_0
    have hi0 : (i 0).val < 32768 := (i 0).isLt
    have hi1 : (i 1).val < 1 := (i 1).isLt
    let t : Fin cfg0.N := ⟨(i 0).val / 2048, by rw [hN]; omega⟩
    obtain ⟨-, -, -, -, -, -, -, -, -, -, e10, e11⟩ := idx0 t
    refine ⟨t, flush0_5 t, ?_⟩
    rw [mem_blk0]
    intro a
    match a with
    | ⟨0, _⟩ =>
      show win0_5.index t 0 * 2048 ≤ (i 0).val ∧ (i 0).val < win0_5.index t 0 * 2048 + 2048
      rw [e10]; show (i 0).val / 2048 * 2048 ≤ (i 0).val ∧ (i 0).val < (i 0).val / 2048 * 2048 + 2048; omega
    | ⟨1, _⟩ => show win0_5.index t 1 * 1 ≤ (i 1).val ∧ (i 1).val < win0_5.index t 1 * 1 + 1; rw [e11]; omega

end Cert.KernelValue

end
-- ==== Proof.Region1.lean ====
/-
  The second pipelined call: the table of "output bias plus row result".

  At grid point t the call's body adds the bias column, spread along the rows' axis, to block t (8192 entries) of the row
  of row results, spread along the channels' axis, and writes the [512, 8192] block t of the table. The four blocks tile
  the table, so after the call entry (c', n) of the table is the bias at c' plus the row result at n.
-/
import proofs.«123383_j25056839205333_1_alg».proof.Proof.KernelHost

set_option maxRecDepth 16384

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.RowSpec

theorem hz2 : (![0, 0] : Fin 2 → Nat) = fun _ => 0 := funext fun a => by fin_cases a <;> rfl

/-- The body's value at (c', j): the bias column's entry c' plus the row block's entry j. -/
theorem pay1_apply (b : Vec Ideal S512x1 .f32) (r : Vec Ideal S1x8192 .f32) (c' : Fin 512) (j : Fin 8192) :
    k1_pay1 (F := Ideal) b r (ix2 c' j) = b (ix2 c' (0 : Fin 1)) + r (ix2 (0 : Fin 1) j) := by
  show (broadcastTo S512x8192 (shapeCast S512x1 b shapeCasts_S512x1_S512x1) broadcasts_S512x1_S512x8192) (ix2 c' j)
      + (broadcastTo S512x8192 (shapeCast S1x8192 r shapeCasts_S1x8192_S1x8192) broadcasts_S1x8192_S512x8192) (ix2 c' j) = _
  rw [shapeCast_self, shapeCast_self]
  refine congrArg₂ (· + ·) ?_ ?_
  · exact broadcastTo_apply b broadcasts_S512x1_S512x8192 (ix2 c' j) (ix2 c' (0 : Fin 1)) (fun a => match a with
      | ⟨0, _⟩ => by show c'.val = if (512 : Nat) = 1 then 0 else c'.val; rw [if_neg (by decide)]
      | ⟨1, _⟩ => by show 0 = if (1 : Nat) = 1 then 0 else j.val; rw [if_pos rfl])
  · exact broadcastTo_apply r broadcasts_S1x8192_S512x8192 (ix2 c' j) (ix2 (0 : Fin 1) j) (fun a => match a with
      | ⟨0, _⟩ => by show 0 = if (1 : Nat) = 1 then 0 else c'.val; rw [if_pos rfl]
      | ⟨1, _⟩ => by show j.val = if (8192 : Nat) = 1 then 0 else j.val; rw [if_neg (by decide)])

/-- The same at any index of the block. -/
theorem pay1_apply' (b : Vec Ideal S512x1 .f32) (r : Vec Ideal S1x8192 .f32) (y : S512x8192.Idx) :
    k1_pay1 (F := Ideal) b r y
      = b (ix2 (⟨(y 0).val, (y 0).isLt⟩ : Fin 512) (0 : Fin 1)) + r (ix2 (0 : Fin 1) (⟨(y 1).val, (y 1).isLt⟩ : Fin 8192)) := by
  have h := pay1_apply b r ⟨(y 0).val, (y 0).isLt⟩ ⟨(y 1).val, (y 1).isLt⟩
  rwa [show ix2 (⟨(y 0).val, (y 0).isLt⟩ : Fin 512) (⟨(y 1).val, (y 1).isLt⟩ : Fin 8192) = y from
    (funext fun a => by match a with | ⟨0, _⟩ => rfl | ⟨1, _⟩ => rfl)] at h

/-- Where the three windows' blocks sit at point t: the row window and the table window move along axis 1 with the point,
    the column window stays. -/
theorem idx1 : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = t.val :=
  (by decide +kernel : ∀ t : Fin grid1.N, _)

section
variable (V : (c : Dev nD) → (b : Ref sig .tc) → Buf (Elt Ideal) ((c : Thread nD τ).loc b)) (c : Dev nD)

/-- Entry (u, j) of the row window's block at point t is entry 8192·t + j of the row. -/
theorem iblk1_0_apply (t : Fin cfg1.N) (u : Fin 1) (j : Fin 8192) (n : Fin 32768) (hn : n.val = t.val * 8192 + j.val) :
    (iblk1 V c 0 t : Vec Ideal S1x8192 .f32) (ix2 u j) = (V c main_v6 : S1x32768.Idx → EReal) (ix2 u n) := by
  obtain ⟨e0, e1, -⟩ := idx1 t
  unfold iblk1
  rw [View.read_apply]
  show V c main_v6 _ = V c main_v6 _
  congr 1
  funext a
  apply Fin.ext
  match a with
  | ⟨0, _⟩ => show win1_0.index t 0 * 1 + 1 * u.val = u.val; rw [e0]; omega
  | ⟨1, _⟩ => show win1_0.index t 1 * 8192 + 1 * j.val = n.val; rw [e1, hn]; omega

/-- The column window's one block is the whole column. -/
theorem iblk1_1_apply (t : Fin cfg1.N) (c' : Fin 512) (u : Fin 1) :
    (iblk1 V c 1 t : Vec Ideal S512x1 .f32) (ix2 c' u) = (V c main_v7 : S512x1.Idx → EReal) (ix2 c' u) := by
  obtain ⟨-, -, e2, e3, -⟩ := idx1 t
  unfold iblk1
  rw [View.read_apply]
  show V c main_v7 _ = V c main_v7 _
  congr 1
  funext a
  apply Fin.ext
  match a with
  | ⟨0, _⟩ => show win1_1.index t 0 * 512 + 1 * c'.val = c'.val; rw [e2]; omega
  | ⟨1, _⟩ => show win1_1.index t 1 * 1 + 1 * u.val = u.val; rw [e3]; omega

end

/-- The table: entry (c', n) is the column's entry c' plus the row's entry n. -/
def table1 (col : S512x1.Idx → EReal) (row : S1x32768.Idx → EReal) : S512x32768.Idx → EReal :=
  fun i => col (ix2 (⟨(i 0).val, (i 0).isLt⟩ : Fin 512) (0 : Fin 1)) + row (ix2 (0 : Fin 1) (⟨(i 1).val, (i 1).isLt⟩ : Fin 32768))

variable (m : (ℓ : Loc nD τ sig) → Buf (Elt Ideal) ℓ) (ρ : Dev nD → PrngReg) (c : Dev nD)

/-- What point t writes back is block t of the table. -/
theorem flushed1_eq (t : Fin cfg1.N) :
    (dat1 (V3 m ρ) c).flushed 2 t
      = ((cfg1.win 2).blk t).view.read (Elt Ideal) (table1 (V3 m ρ c main_v7) (V3 m ρ c main_v6)) := by
  show (cfg1.win 2).cut (grid1.coords t) ((dat1 (V3 m ρ) c).after 2 t) = _
  rw [after1_2]
  unfold out1_2
  rw [View.canon_unit_zero hz2]
  simp only [View.ld_unit_zero (S := S512x1) hz2, View.ld_unit_zero (S := S1x8192) hz2]
  obtain ⟨-, -, -, -, e4, e5⟩ := idx1 t
  funext y
  have hN : cfg1.N = 4 := N_1
  have ht : t.val < 4 := hN ▸ t.isLt
  have hy0 : (y 0).val < 512 := (y 0).isLt
  have hy1 : (y 1).val < 8192 := (y 1).isLt
  show k1_pay1 (F := Ideal) (iblk1 (V3 m ρ) c 1 t) (iblk1 (V3 m ρ) c 0 t) y
    = table1 (V3 m ρ c main_v7) (V3 m ρ c main_v6) (((cfg1.win 2).blk t).view.emb y)
  refine (pay1_apply' (iblk1 (V3 m ρ) c 1 t) (iblk1 (V3 m ρ) c 0 t) y).trans ?_
  unfold table1
  refine congrArg₂ (· + ·) ?_ ?_
  · refine (iblk1_1_apply (V3 m ρ) c t ⟨(y 0).val, hy0⟩ (0 : Fin 1)).trans ?_
    refine congrArg (V3 m ρ c main_v7 : S512x1.Idx → EReal) ?_
    funext a
    apply Fin.ext
    match a with
    | ⟨0, _⟩ => show (y 0).val = win1_2.index t 0 * 512 + 1 * (y 0).val; rw [e4]; omega
    | ⟨1, _⟩ => rfl
  · exact iblk1_0_apply (V3 m ρ) c t (0 : Fin 1) ⟨(y 1).val, hy1⟩ _ (by
      show win1_2.index t 1 * 8192 + 1 * (y 1).val = t.val * 8192 + (y 1).val; rw [e5]; omega)

/-- An index of the table is in point t's block iff each coordinate is in the block's range. -/
theorem mem_blk1 (t : Fin cfg1.N) (i : S512x32768.Idx) :
    i ∈ ((cfg1.win 2).blk t).view.set ↔ ∀ a : Fin 2, win1_2.index t a * S512x8192.size a ≤ (i a).val
      ∧ (i a).val < win1_2.index t a * S512x8192.size a + S512x8192.size a := by
  show i ∈ ((View.whole main_v8).slice (win1_2.rect t)).set ↔ _
  rw [View.set_slice_whole, Rect.mem_set_unit]
  exact Iff.rfl

/-- After the call the table's array holds the table. -/
theorem final1 : ((dat1 (V3 m ρ) c).arrAt 2 cfg1.N : S512x32768.Idx → EReal)
    = table1 (V3 m ρ c main_v7) (V3 m ρ c main_v6) :=
  (dat1 (V3 m ρ) c).arrAt_eq_of_cover 2 (table1 (V3 m ρ c main_v7) (V3 m ρ c main_v6)) (fun t _ => flushed1_eq m ρ c t) fun i => by
    have hN : cfg1.N = 4 := N_1
    have hi0 : (i 0).val < 512 := (i 0).isLt
    have hi1 : (i 1).val < 32768 := (i 1).isLt
    let t : Fin cfg1.N := ⟨(i 1).val / 8192, by rw [hN]; omega⟩
    obtain ⟨-, -, -, -, e4, e5⟩ := idx1 t
    refine ⟨t, flush1_2 t, ?_⟩
    rw [mem_blk1]
    intro a
    match a with
    | ⟨0, _⟩ => show win1_2.index t 0 * 512 ≤ (i 0).val ∧ (i 0).val < win1_2.index t 0 * 512 + 512; rw [e4]; omega
    | ⟨1, _⟩ =>
      show win1_2.index t 1 * 8192 ≤ (i 1).val ∧ (i 1).val < win1_2.index t 1 * 8192 + 8192
      rw [e5]; show (i 1).val / 8192 * 8192 ≤ (i 1).val ∧ (i 1).val < (i 1).val / 8192 * 8192 + 8192; omega

end Cert.KernelValue

end
-- ==== Proof.RefRow.lean ====
/-
  The reference program read one output element at a time.

  The reference forms, for every row `n` of the input, the 512 channel values of the row against the weight matrix plus
  the linear bias; normalises each of the 16 groups of 32 consecutive channels by the group's mean and the reciprocal
  square root of its clamped variance plus a small constant; scales and shifts per channel; takes the least of the 512
  results; and adds the output bias of the output channel. This module follows the program operation by operation at an
  index and identifies the result at output channel `c` and row `n` with the row function of the specification.
-/
import proofs.«123383_j25056839205333_1_alg».proof.Proof.Gen.ReferenceIdeal.Read
import proofs.«123383_j25056839205333_1_alg».proof.Proof.Spec
import Idealize.ShloMosaic.Lib.ValueIdx
import Idealize.ShloMosaic.Lib.Pipeline.Value
import Idealize.ShloMosaic.PureOps.Ideal.Laws

noncomputable section

namespace Cert.RefRow

open Idealize.ShloMosaic Idealize.ShloMosaic.ValueIdx Cert.ReferenceIdeal Cert.ReferenceIdeal.Gen Cert.ReferenceIdeal.Read Cert.RowSpec

variable (x : (⟨S32768x1024, .f32⟩ : BufTy).Contents (Elt Ideal)) (W : (⟨S512x1024, .f32⟩ : BufTy).Contents (Elt Ideal))
  (b γ β : (⟨S512, .f32⟩ : BufTy).Contents (Elt Ideal))

/-- The row `n` of the input against the weights plus the linear bias, as a function of the channel. -/
abbrev hrow (n : Fin 32768) : Fin 512 → EReal :=
  lin (fun k => x (ix2 n k)) (fun c' k => W (ix2 c' k)) (fun c' => b (ix1 c'))

/-! ### The linear layer -/

theorem lidx1 (n : Fin 32768) (c : Fin 512) (k : Fin 1024) : lidx_main_v1 (ix2 n c) k = ix2 n k :=
  funext fun a => Fin.ext (by match a with | ⟨0, _⟩ => rfl | ⟨1, _⟩ => rfl)

theorem ridx1 (n : Fin 32768) (c : Fin 512) (k : Fin 1024) : idx_main_v0 (ridx_main_v1 (ix2 n c) k) = ix2 c k :=
  funext fun a => Fin.ext (by match a with | ⟨0, _⟩ => rfl | ⟨1, _⟩ => rfl)

theorem bidx (n : Fin 32768) (c : Fin 512) : idx_main_v2 (idx_main_v3 (ix2 n c)) = ix1 c :=
  funext fun a => Fin.ext (by match a with | ⟨0, _⟩ => rfl)

/-- The sum of the linear layer at row `n` and channel `c`. -/
theorem v4_apply (n : Fin 32768) (c : Fin 512) :
    val_main_v4 (F := Ideal) x W b (ix2 n c) = hrow x W b n c := by
  rw [val_main_v4_apply, val_main_v1_apply, val_main_v3_apply, val_main_v2_apply, bidx]
  show (∑ k : Fin 1024, x (lidx_main_v1 (ix2 n c) k) * val_main_v0 (F := Ideal) W (ridx_main_v1 (ix2 n c) k)) + b (ix1 c) = _
  refine congrArg (· + b (ix1 c)) (Finset.sum_congr rfl fun k _ => ?_)
  rw [val_main_v0_apply, lidx1, ridx1]

/-! ### The groups -/

theorem idx5 (n : Fin 32768) (g : Fin 16) (j : Fin 32) : idx_main_v5 (ix3 n g j) = ix2 n (chan g j) :=
  funext fun a => Fin.ext (by
    have hn := n.isLt; have hg := g.isLt; have hj := j.isLt
    match a with
    | ⟨0, _⟩ => show ((n.val * 16 + g.val) * 32 + j.val) / 512 = n.val; omega
    | ⟨1, _⟩ => show ((n.val * 16 + g.val) * 32 + j.val) % 512 = g.val * 32 + j.val; omega)

/-- Lane `j` of group `g` of row `n`. -/
theorem v5_apply (n : Fin 32768) (g : Fin 16) (j : Fin 32) :
    val_main_v5 (F := Ideal) x W b (ix3 n g j) = hrow x W b n (chan g j) := by
  rw [val_main_v5_apply, idx5, v4_apply]

theorem idx6 (n : Fin 32768) (g : Fin 16) (j : Fin 32) : idx_main_v6 (ix2 n g) j = ix3 n g j :=
  funext fun a => Fin.ext (by match a with | ⟨0, _⟩ => rfl | ⟨1, _⟩ => rfl | ⟨2, _⟩ => rfl)

theorem idx11 (n : Fin 32768) (g : Fin 16) (j : Fin 32) : idx_main_v11 (ix2 n g) j = ix3 n g j :=
  funext fun a => Fin.ext (by match a with | ⟨0, _⟩ => rfl | ⟨1, _⟩ => rfl | ⟨2, _⟩ => rfl)

/-- The sum of a group's lanes. -/
theorem v6_apply (n : Fin 32768) (g : Fin 16) :
    val_main_v6 (F := Ideal) x W b (ix2 n g) = ∑ j : Fin 32, hrow x W b n (chan g j) := by
  rw [val_main_v6_apply]
  rw [show val_main_cst (F := Ideal) (Shape.Idx.first h_S_) = 0 from Ideal.ofBits_zero_f32, zero_add]
  refine Finset.sum_congr rfl fun j _ => ?_
  rw [idx6, v5_apply]

/-- The sum of a group's squared lanes. -/
theorem v11_apply (n : Fin 32768) (g : Fin 16) :
    val_main_v11 (F := Ideal) x W b (ix2 n g) = ∑ j : Fin 32, hrow x W b n (chan g j) * hrow x W b n (chan g j) := by
  rw [val_main_v11_apply]
  rw [show val_main_cst_1 (F := Ideal) (Shape.Idx.first h_S_) = 0 from Ideal.ofBits_zero_f32, zero_add]
  refine Finset.sum_congr rfl fun j _ => ?_
  rw [idx11, val_main_v10_apply, v5_apply]
  rfl

/-! ### The statistics of a group -/

theorem idx7 (n : Fin 32768) (g : Fin 16) (z : Fin 1) : idx_main_v7 (ix3 n g z) = ix2 n g :=
  funext fun a => Fin.ext (by match a with | ⟨0, _⟩ => rfl | ⟨1, _⟩ => rfl)

theorem idx12 (n : Fin 32768) (g : Fin 16) (z : Fin 1) : idx_main_v12 (ix3 n g z) = ix2 n g :=
  funext fun a => Fin.ext (by match a with | ⟨0, _⟩ => rfl | ⟨1, _⟩ => rfl)

/-- A group's mean. -/
theorem v9_apply (n : Fin 32768) (g : Fin 16) (z : Fin 1) :
    val_main_v9 (F := Ideal) x W b (ix3 n g z) = mean (hrow x W b n) g := by
  rw [val_main_v9_apply, val_main_v7_apply, val_main_v8_apply, idx7, v6_apply]
  rfl

/-- A group's mean square. -/
theorem v14_apply (n : Fin 32768) (g : Fin 16) (z : Fin 1) :
    val_main_v14 (F := Ideal) x W b (ix3 n g z) = meanSq (hrow x W b n) g := by
  rw [val_main_v14_apply, val_main_v12_apply, val_main_v13_apply, idx12, v11_apply]
  rfl

/-- The reciprocal square root of a group's clamped variance plus the small constant. -/
theorem v23_apply (n : Fin 32768) (g : Fin 16) (z : Fin 1) :
    val_main_v23 (F := Ideal) x W b (ix3 n g z) = invStd (hrow x W b n) g := by
  rw [val_main_v23_apply, val_main_v22_apply, val_main_v18_apply, val_main_v16_apply, val_main_v15_apply, v14_apply,
    v9_apply, val_main_v17_apply, val_main_v21_apply]
  rfl

/-! ### The normalised values -/

theorem idx19 (n : Fin 32768) (g : Fin 16) (j : Fin 32) : idx_main_v19 (ix3 n g j) = ix3 n g (0 : Fin 1) :=
  funext fun a => Fin.ext (by match a with | ⟨0, _⟩ => rfl | ⟨1, _⟩ => rfl | ⟨2, _⟩ => rfl)

theorem idx24 (n : Fin 32768) (g : Fin 16) (j : Fin 32) : idx_main_v24 (ix3 n g j) = ix3 n g (0 : Fin 1) :=
  funext fun a => Fin.ext (by match a with | ⟨0, _⟩ => rfl | ⟨1, _⟩ => rfl | ⟨2, _⟩ => rfl)

theorem idx28 (n : Fin 32768) (g : Fin 16) (j : Fin 32) :
    idx_main_v26 (idx_main_v27 (idx_main_v28 (ix3 n g j))) = ix1 (chan g j) :=
  funext fun a => Fin.ext (by match a with | ⟨0, _⟩ => rfl)

theorem idx32 (n : Fin 32768) (g : Fin 16) (j : Fin 32) :
    idx_main_v30 (idx_main_v31 (idx_main_v32 (ix3 n g j))) = ix1 (chan g j) :=
  funext fun a => Fin.ext (by match a with | ⟨0, _⟩ => rfl)

/-- The normalised, scaled and shifted value of lane `j` of group `g` of row `n`. -/
theorem v33_apply (n : Fin 32768) (g : Fin 16) (j : Fin 32) :
    val_main_v33 (F := Ideal) x W b γ β (ix3 n g j)
      = normed (hrow x W b n) (fun g j => γ (ix1 (chan g j))) (fun g j => β (ix1 (chan g j))) g j := by
  rw [val_main_v33_apply, val_main_v29_apply, val_main_v25_apply, val_main_v20_apply, val_main_v19_apply,
    val_main_v24_apply, val_main_v28_apply, val_main_v27_apply, val_main_v26_apply, val_main_v32_apply,
    val_main_v31_apply, val_main_v30_apply, idx19, idx24, idx28, idx32, v5_apply, v9_apply, v23_apply]
  rfl

theorem idx34 (n : Fin 32768) (c : Fin 512) : idx_main_v34 (ix2 n c) = ix3 n (grp c) (lane c) :=
  funext fun a => Fin.ext (by
    have hn := n.isLt; have hc := c.isLt
    match a with
    | ⟨0, _⟩ => show (n.val * 512 + c.val) / 512 = n.val; omega
    | ⟨1, _⟩ => show (n.val * 512 + c.val) / 32 % 16 = c.val / 32; omega
    | ⟨2, _⟩ => show (n.val * 512 + c.val) % 32 = c.val % 32; omega)

/-- The normalised value at channel `c` of row `n`. -/
theorem v34_apply (n : Fin 32768) (c : Fin 512) :
    val_main_v34 (F := Ideal) x W b γ β (ix2 n c)
      = normed (hrow x W b n) (fun g j => γ (ix1 (chan g j))) (fun g j => β (ix1 (chan g j))) (grp c) (lane c) := by
  rw [val_main_v34_apply, idx34, v33_apply]

/-! ### The least of a row's normalised values, and the output -/

/-- The index of the row `n` with the channel coordinate `k` put back in. -/
theorem lift35 (h : S32768x512.Reduces [1] S32768) (n : Fin 32768) (k : Fin 512) :
    h.lift (ix1 n) k = ix2 n k :=
  funext fun a => Fin.ext (by match a with | ⟨0, _⟩ => rfl | ⟨1, _⟩ => rfl)

/-- The least of the 512 normalised values of row `n`. -/
theorem v35_apply (n : Fin 32768) :
    val_main_v35 (F := Ideal) x W b γ β (ix1 n)
      = rowMin (hrow x W b n) (fun g j => γ (ix1 (chan g j))) (fun g j => β (ix1 (chan g j))) := by
  have h : S32768x512.Reduces [1] S32768 := by decide
  unfold val_main_v35
  have key := Host.reduce_eq_fold_single (α := Ideal .f32) (FloatOps.minimumf (F := Ideal) (φ := .f32))
    (val_main_v34 (F := Ideal) x W b γ β) (val_main_cst_5 (F := Ideal)) reducesTo_S32768x512_S32768_d1 h h_S_ (ix1 n)
  refine key.trans ?_
  show (Finset.univ : Finset (Fin 512)).fold min wInf
      (fun k : Fin 512 => val_main_v34 (F := Ideal) x W b γ β (h.lift (ix1 n) k)) = _
  unfold rowMin
  refine Finset.fold_congr fun k _ => ?_
  rw [lift35, v34_apply]

theorem idx37 (c : Fin 512) (n : Fin 32768) :
    idx_main_v36 (idx_main_v37 (ix4 (0 : Fin 1) c n (0 : Fin 1))) = ix1 n :=
  funext fun a => Fin.ext (by match a with | ⟨0, _⟩ => rfl)

theorem idx38 (c : Fin 512) (n : Fin 32768) :
    idx_main_v38 (ix4 (0 : Fin 1) c n (0 : Fin 1)) = ix4 (0 : Fin 1) c (0 : Fin 1) (0 : Fin 1) :=
  funext fun a => Fin.ext (by match a with | ⟨0, _⟩ => rfl | ⟨1, _⟩ => rfl | ⟨2, _⟩ => rfl | ⟨3, _⟩ => rfl)

/-- THE REFERENCE AT AN INDEX: at output channel `c` and row `n` it is the least normalised value of the row plus the
    output bias of the channel. -/
theorem ref_apply
    (x : (⟨S32768x1024, .f32⟩ : BufTy).Contents (Elt Ideal)) (W : (⟨S512x1024, .f32⟩ : BufTy).Contents (Elt Ideal))
    (b γ β : (⟨S512, .f32⟩ : BufTy).Contents (Elt Ideal)) (bias : (⟨S1x512x1x1, .f32⟩ : BufTy).Contents (Elt Ideal))
    (c : Fin 512) (n : Fin 32768) :
    val_main_v39 (F := Ideal) x W b γ β bias (ix4 (0 : Fin 1) c n (0 : Fin 1))
      = rowMin (lin (fun k => x (ix2 n k)) (fun c' k => W (ix2 c' k)) (fun c' => b (ix1 c')))
          (fun g j => γ (ix1 (chan g j))) (fun g j => β (ix1 (chan g j)))
        + bias (ix4 (0 : Fin 1) c (0 : Fin 1) (0 : Fin 1)) := by
  rw [val_main_v39_apply, val_main_v37_apply, val_main_v36_apply, val_main_v38_apply, idx37, idx38, v35_apply]
  rfl

end Cert.RefRow

end
-- ==== Proof.KernelResult.lean ====
/-
  The idealized kernel's result buffer, and the reference's, as one function of the argument arrays.

  The kernel side: the last host operation recasts the second call's table; the table's entry (c', n) is the bias column
  at c' plus the row of row results at n; the column is the output bias recast and the row is the first call's column
  recast; the first call's column holds the row results of the arguments. The reference side is the generated reading of
  its host operations, which ends in "row result plus bias": the two sums differ by the order of the two terms.
-/
import proofs.«123383_j25056839205333_1_alg».proof.Proof.Region0
import proofs.«123383_j25056839205333_1_alg».proof.Proof.Region1
import proofs.«123383_j25056839205333_1_alg».proof.Proof.RefRow

noncomputable section

namespace Cert.KernelValue

open Idealize.ShloMosaic Idealize.ShloMosaic.TcCoe Idealize.SL.Sem Idealize.ShloMosaic.ValueIdx
open Cert.KernelIdeal Cert.KernelIdeal.Gen Cert.RowSpec

variable (m : (ℓ : Loc nD τ sig) → Buf (Elt Ideal) ℓ) (ρ : Dev nD → PrngReg) (c : Dev nD)

/-- The result buffer after the run is the output bias plus the row results of the launch arguments. -/
theorem result_eq : (W5 m ρ c (Proc.devRef .tc main_v9) : S1x512x32768x1.Idx → EReal)
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  obtain ⟨u, c', n, v, rfl⟩ : ∃ (u : Fin 1) (c' : Fin 512) (n : Fin 32768) (v : Fin 1), i = ix4 u c' n v :=
    ⟨i 0, i 1, i 2, i 3, eq_ix4 i⟩
  rw [W5_v9_apply, final1]
  unfold table1 outOf
  refine congrArg₂ (· + ·) ?_ ?_
  · exact V3_v7_apply m ρ c c' (0 : Fin 1)
  · refine (V3_v6_apply m ρ c (0 : Fin 1) n).trans ?_
    rw [final0]
    rfl

end Cert.KernelValue

namespace Cert.RefValue

open Idealize.ShloMosaic Idealize.ShloMosaic.ValueIdx Cert.ReferenceIdeal Cert.ReferenceIdeal.Read Cert.RowSpec

/-- The reference's last value is the same function of its arguments. -/
theorem result_eq (x : (⟨S32768x1024, .f32⟩ : BufTy).Contents (Elt Ideal)) (W : (⟨S512x1024, .f32⟩ : BufTy).Contents (Elt Ideal))
    (b γ β : (⟨S512, .f32⟩ : BufTy).Contents (Elt Ideal)) (bias : (⟨S1x512x1x1, .f32⟩ : BufTy).Contents (Elt Ideal)) :
    val_main_v39 (F := Ideal) x W b γ β bias = outOf x W b γ β bias := by
  funext i
  obtain ⟨u, c', n, v, rfl⟩ : ∃ (u : Fin 1) (c' : Fin 512) (n : Fin 32768) (v : Fin 1), i = ix4 u c' n v :=
    ⟨i 0, i 1, i 2, i 3, eq_ix4 i⟩
  obtain rfl : u = 0 := Subsingleton.elim _ _
  obtain rfl : v = 0 := Subsingleton.elim _ _
  rw [Cert.RefRow.ref_apply]
  exact add_comm _ _

end Cert.RefValue

end
-- ==== Proof.lean ====
/-
  The certificate: a fused linear layer, group normalisation and row minimum, then a bias added across channels, as two
  pipelined calls, against the same computation written with whole-array operations.

  Both programs compute, for every row n of the input and every channel c', the output bias of c' plus the result of row
  n: the row against the weights plus the linear bias gives 512 channel values; the channels fall into 16 groups of 32,
  each normalised by its mean and by the reciprocal square root of its clamped mean square minus squared mean plus a
  small constant, scaled and shifted per channel; the row's result is the least of the 512 values. At the exact
  operations on the extended reals a change of float format is the identity, the matrix unit's product into a zero
  accumulator and the host's contraction are the same sum, a lane sum and the host's sum from zero are the same sum, and
  the two minima fold the same 512 values from +∞. The first program's calls write their results block by block; the
  blocks tile the arrays, and each block's entries are the row results (first call) and the sums bias + row result
  (second call) of the entries they cover. The one algebraic step is that the second call adds "bias + row result" where
  the reference adds "row result + bias". No finiteness of the inputs is used.
  The three frames are the generated ones; the idealization rewrote nothing, so there is nothing to preserve.
-/
import proofs.«123383_j25056839205333_1_alg».proof.Defs
import proofs.«123383_j25056839205333_1_alg».proof.Proof.Gen.Kernel
import proofs.«123383_j25056839205333_1_alg».proof.Proof.Gen.Kernel.Skeleton
import proofs.«123383_j25056839205333_1_alg».proof.Proof.Gen.Kernel.Launch
import proofs.«123383_j25056839205333_1_alg».proof.Proof.Gen.Kernel.Points
import proofs.«123383_j25056839205333_1_alg».proof.Proof.Gen.Kernel.Frame
import proofs.«123383_j25056839205333_1_alg».proof.Proof.Gen.KernelIdeal
import proofs.«123383_j25056839205333_1_alg».proof.Proof.Gen.KernelIdeal.Skeleton
import proofs.«123383_j25056839205333_1_alg».proof.Proof.Gen.KernelIdeal.Launch
import proofs.«123383_j25056839205333_1_alg».proof.Proof.Gen.KernelIdeal.Points
import proofs.«123383_j25056839205333_1_alg».proof.Proof.Gen.KernelIdeal.Frame
import proofs.«123383_j25056839205333_1_alg».proof.Proof.Gen.ReferenceIdeal
import proofs.«123383_j25056839205333_1_alg».proof.Proof.Gen.Pre_finite_inputs
import proofs.«123383_j25056839205333_1_alg».proof.Proof.Gen.ReferenceIdeal.Run
import proofs.«123383_j25056839205333_1_alg».proof.Proof.Gen.ReferenceIdeal.Read
import proofs.«123383_j25056839205333_1_alg».proof.Proof.KernelRun
import proofs.«123383_j25056839205333_1_alg».proof.Proof.KernelResult
import Idealize.ShloMosaic.Adequacy
import Idealize.ShloMosaic.Init

noncomputable section

namespace Cert.Proof

open Idealize.ShloMosaic Idealize.ShloMosaic.TcCoe Idealize.SL.Sem Cert.RowSpec

/-- The word-level program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result buffer at "output bias plus row result"
    of the arguments. -/
theorem algebraic : Cert.algebraic_KernelIdeal_ReferenceIdeal := by
  intro m ρ m' ρ' _ hagree
  refine ⟨fun c => outOf (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · exact (θ_run Cert.KernelIdeal.defs _ _).mono
      (fun r h c => ⟨(h c).1.trans (Cert.KernelValue.result_eq m ρ c), (h c).2⟩)
      (Cert.KernelValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.RefValue.result_eq, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
